-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S2x256x128 : Shape := ⟨3, ![2, 256, 128]⟩
abbrev S128 : Shape := ⟨1, ![128]⟩
abbrev S600000 : Shape := ⟨1, ![600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x600000 : S_.BroadcastsInDim S2x600000 (![] : Fin 0 → Fin S2x600000.rank)
  reducesTo_S2x600000_S_d0_1 : S2x600000.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S2x256x128 1) : IVec S_ 1 :=
  let main_c_5 : IVec S_ 1 := constantI S_ 1 1#1
  let main_v17 : IVec S_ 1 := (fun x v => Host.reduce IntOp.andi x v reducesTo_S2x256x128_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : FVec F S2x600000 .f32) (main_arg2 : FVec F S2x256x128 .f32) (main_arg3 : FVec F S2x256x128 .f32) (main_arg4 : FVec F S128 .f32) (main_arg5 : IVec S600000 32) (main_arg6 : IVec S600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x600000 .f32 := Host.absf main_arg1
  let main_cst_0 : FVec F S_ .f32 := constant S_ .f32 0x7F800000#32
  let main_v5 : FVec F S2x600000 .f32 := broadcastInDim S2x600000 ![] bcast_S_S2x600000 main_cst_0
  let main_v6 : IVec S2x600000 1 := cmpf .olt main_v4 main_v5
  let main_c_1 : IVec S_ 1 := constantI S_ 1 1#1
  let main_v7 : IVec S_ 1 := (fun x v => Host.reduce IntOp.andi x v reducesTo_S2x600000_S_d0_1 h_S_) main_v6 main_c_1
  let main_v8 : IVec S_ 1 := andi main_v3 main_v7
  let main_v9 : FVec F S2x256x128 .f32 := Host.absf main_arg2
  let main_cst_2 : FVec F S_ .f32 := constant S_ .f32 0x7F800000#32
  let main_v10 : FVec F S2x256x128 .f32 := broadcastInDim S2x256x128 ![] bcast_S_S2x256x128 main_cst_2
  let main_v11 : IVec S2x256x128 1 := cmpf .olt main_v9 main_v10
  let main_c_3 : IVec S_ 1 := constantI S_ 1 1#1
  let main_v12 : IVec S_ 1 := (fun x v => Host.reduce IntOp.andi x v reducesTo_S2x256x128_S_d0_1_2 h_S_) main_v11 main_c_3
  let main_v13 : IVec S_ 1 := andi main_v8 main_v12
  let main_v14 : FVec F S2x256x128 .f32 := Host.absf main_arg3
  let main_cst_4 : FVec F S_ .f32 := constant S_ .f32 0x7F800000#32
  let main_v15 : FVec F S2x256x128 .f32 := broadcastInDim S2x256x128 ![] bcast_S_S2x256x128 main_cst_4
  let main_v16 : IVec S2x256x128 1 := cmpf .olt main_v14 main_v15
  fn_part1 (F := F) main_arg4 main_v13 main_v16
-- ==== Kernel.lean ====
abbrev S50000x256 : Shape := ⟨2, ![50000, 256]⟩
abbrev S2x600000 : Shape := ⟨2, ![2, 600000]⟩
abbrev S2x256x128 : Shape := ⟨3, ![2, 256, 128]⟩
abbrev S128 : Shape := ⟨1, ![128]⟩
abbrev S600000 : Shape := ⟨1, ![600000]⟩
abbrev S1x256x128 : Shape := ⟨3, ![1, 256, 128]⟩
abbrev S256x128 : Shape := ⟨2, ![256, 128]⟩
abbrev S256x512 : Shape := ⟨2, ![256, 512]⟩
abbrev S50000x512 : Shape := ⟨2, ![50000, 512]⟩
abbrev S2000x256 : Shape := ⟨2, ![2000, 256]⟩
abbrev S2000x512 : Shape := ⟨2, ![2000, 512]⟩
abbrev S50000x128 : Shape := ⟨2, ![50000, 128]⟩
abbrev S_ : Shape := ⟨0, ![]⟩
abbrev S600000x1 : Shape := ⟨2, ![600000, 1]⟩
abbrev S600000x128 : Shape := ⟨2, ![600000, 128]⟩
abbrev S1x600000 : Shape := ⟨2, ![1, 600000]⟩
abbrev S1x128 : Shape := ⟨2, ![1, 128]⟩
abbrev S2000x128 : Shape := ⟨2, ![2000, 128]⟩

abbrev nBuf : Space → Nat
  | .hbm => 87
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x600000, .f32⟩
  | .hbm, ⟨2, _⟩ => ⟨S2x256x128, .f32⟩
  | .hbm, ⟨3, _⟩ => ⟨S2x256x128, .f32⟩
  | .hbm, ⟨4, _⟩ => ⟨S128, .f32⟩
  | .hbm, ⟨5, _⟩ => ⟨S600000, .i32⟩
  | .hbm, ⟨6, _⟩ => ⟨S600000, .i32⟩
  | .hbm, ⟨7, _⟩ => ⟨S1x256x128, .f32⟩
  | .hbm, ⟨8, _⟩ => ⟨S256x128, .f32⟩
  | .hbm, ⟨9, _⟩ => ⟨S1x256x128, .f32⟩
  | .hbm, ⟨10, _⟩ => ⟨S256x128, .f32⟩
  | .hbm, ⟨11, _⟩ => ⟨S1x256x128, .f32⟩
  | .hbm, ⟨12, _⟩ => ⟨S256x128, .f32⟩
  | .hbm, ⟨13, _⟩ => ⟨S1x256x128, .f32⟩
  | .hbm, ⟨14, _⟩ => ⟨S256x128, .f32⟩
  | .hbm, ⟨15, _⟩ => ⟨S256x512, .f32⟩
  | .hbm, ⟨16, _⟩ => ⟨S50000x256, .bf16⟩
  | .hbm, ⟨17, _⟩ => ⟨S256x512, .bf16⟩
  | .hbm, ⟨18, _⟩ => ⟨S50000x512, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S1x600000, .f32⟩
  | .hbm, ⟨42, _⟩ => ⟨S600000, .f32⟩
  | .hbm, ⟨43, _⟩ => ⟨S600000x1, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S1x600000, .f32⟩
  | .hbm, ⟨73, _⟩ => ⟨S600000, .f32⟩
  | .hbm, ⟨74, _⟩ => ⟨S600000x1, .f32⟩
  | .hbm, ⟨75, _⟩ => ⟨S600000x128, .f32⟩
  | .hbm, ⟨76, _⟩ => ⟨S600000x128, .f32⟩
  | .hbm, ⟨77, _⟩ => ⟨S_, .f32⟩
  | .hbm, ⟨78, _⟩ => ⟨S50000x128, .f32⟩
  | .hbm, ⟨79, _⟩ => ⟨S600000x1, .i32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S600000x1, .i32⟩
  | .hbm, ⟨84, _⟩ => ⟨S50000x128, .f32⟩
  | .hbm, ⟨85, _⟩ => ⟨S1x128, .f32⟩
  | .hbm, ⟨86, _⟩ => ⟨S50000x128, .f32⟩
  | .local _ .vmem, ⟨0, _⟩ => ⟨S2000x256, .bf16⟩
  | .local _ .vmem, ⟨1, _⟩ => ⟨S2000x256, .bf16⟩
  | .local _ .vmem, ⟨2, _⟩ => ⟨S256x512, .bf16⟩
  | .local _ .vmem, ⟨3, _⟩ => ⟨S2000x512, .f32⟩
  | .local _ .vmem, ⟨4, _⟩ => ⟨S2000x512, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x256x128_S1x256x128_0_0_0 : S2x256x128.Slices ![0, 0, 0] S1x256x128
  shapeCasts_S1x256x128_S256x128 : S1x256x128.ShapeCasts S256x128
  slices_S2x256x128_S1x256x128_1_0_0 : S2x256x128.Slices ![1, 0, 0] S1x256x128
  concatenates_S256x128_S256x128_S256x128_S256x128_S256x512_d1 : Shape.Concatenates [S256x128, S256x128, S256x128, S256x128] S256x512 1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x512_S2000x512_0_0 : ∀ a, (![0, 0] : Fin 2 → Nat) a + S2000x512.size a ≤ S2000x512.size a
  h_S2000x512 : 0 < S2000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_0_0 : S2x600000.Slices ![0, 0] S1x600000
  shapeCasts_S1x600000_S600000 : S1x600000.ShapeCasts S600000
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S2x600000_S1x600000_1_0 : S2x600000.Slices ![1, 0] S1x600000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x256_S256x512_S2000x512_1_0_0_1_n_n_wf : DotDims.WF S2000x256 S256x512 S2000x512 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v9) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v65) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S2x256x128 : Shape := ⟨3, ![2, 256, 128]⟩
abbrev S128 : Shape := ⟨1, ![128]⟩
abbrev S600000 : Shape := ⟨1, ![600000]⟩
abbrev S_ : Shape := ⟨0, ![]⟩
abbrev S50000x128 : Shape := ⟨2, ![50000, 128]⟩
abbrev S1x256x128 : Shape := ⟨3, ![1, 256, 128]⟩
abbrev S256x128 : Shape := ⟨2, ![256, 128]⟩
abbrev S1x600000 : Shape := ⟨2, ![1, 600000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x600000, .f32⟩
  | .hbm, ⟨2, _⟩ => ⟨S2x256x128, .f32⟩
  | .hbm, ⟨3, _⟩ => ⟨S2x256x128, .f32⟩
  | .hbm, ⟨4, _⟩ => ⟨S128, .f32⟩
  | .hbm, ⟨5, _⟩ => ⟨S600000, .i32⟩
  | .hbm, ⟨6, _⟩ => ⟨S600000, .i32⟩
  | .hbm, ⟨7, _⟩ => ⟨S_, .f32⟩
  | .hbm, ⟨8, _⟩ => ⟨S50000x128, .f32⟩
  | .hbm, ⟨9, _⟩ => ⟨S_, .f32⟩
  | .hbm, ⟨10, _⟩ => ⟨S600000, .f32⟩
  | .hbm, ⟨11, _⟩ => ⟨S1x256x128, .f32⟩
  | .hbm, ⟨12, _⟩ => ⟨S256x128, .f32⟩
  | .hbm, ⟨13, _⟩ => ⟨S50000x128, .f32⟩
  | .hbm, ⟨14, _⟩ => ⟨S1x256x128, .f32⟩
  | .hbm, ⟨15, _⟩ => ⟨S256x128, .f32⟩
  | .hbm, ⟨16, _⟩ => ⟨S50000x128, .f32⟩
  | .hbm, ⟨17, _⟩ => ⟨S1x600000, .f32⟩
  | .hbm, ⟨18, _⟩ => ⟨S600000, .f32⟩
  | .hbm, ⟨19, _⟩ => ⟨S600000x1, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S600000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x128, .f32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x256x128, .f32⟩
  | .hbm, ⟨57, _⟩ => ⟨S256x128, .f32⟩
  | .hbm, ⟨58, _⟩ => ⟨S50000x128, .f32⟩
  | .hbm, ⟨59, _⟩ => ⟨S1x256x128, .f32⟩
  | .hbm, ⟨60, _⟩ => ⟨S256x128, .f32⟩
  | .hbm, ⟨61, _⟩ => ⟨S50000x128, .f32⟩
  | .hbm, ⟨62, _⟩ => ⟨S1x600000, .f32⟩
  | .hbm, ⟨63, _⟩ => ⟨S600000, .f32⟩
  | .hbm, ⟨64, _⟩ => ⟨S600000x1, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S600000x128, .f32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S600000x1, .f32⟩
  | .hbm, ⟨81, _⟩ => ⟨S_, .i32⟩
  | .hbm, ⟨82, _⟩ => ⟨S600000, .i32⟩
  | .hbm, ⟨83, _⟩ => ⟨S600000, .i1⟩
  | .hbm, ⟨84, _⟩ => ⟨S_, .i32⟩
  | .hbm, ⟨85, _⟩ => ⟨S600000, .i32⟩
  | .hbm, ⟨86, _⟩ => ⟨S600000, .i32⟩
  | .hbm, ⟨87, _⟩ => ⟨S600000, .i32⟩
  | .hbm, ⟨88, _⟩ => ⟨S600000x1, .i32⟩
  | .hbm, ⟨89, _⟩ => ⟨S600000x128, .f32⟩
  | .hbm, ⟨90, _⟩ => ⟨S600000x128, .f32⟩
  | .hbm, ⟨91, _⟩ => ⟨S600000x128, .f32⟩
  | .hbm, ⟨92, _⟩ => ⟨S_, .f32⟩
  | .hbm, ⟨93, _⟩ => ⟨S50000x128, .f32⟩
  | .hbm, ⟨94, _⟩ => ⟨S600000x1, .i32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x128, .f32⟩
  | .hbm, ⟨106, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_10 : Ref sig .tc := ⟨.hbm, 81, rfl⟩
abbrev main_v62 : Ref sig .tc := ⟨.hbm, 82, rfl⟩
abbrev main_v63 : Ref sig .tc := ⟨.hbm, 83, rfl⟩
abbrev main_c_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call0_cst : Ref sig .tc := ⟨.hbm, 104, rfl⟩
abbrev main_call0_v0 : Ref sig .tc := ⟨.hbm, 105, rfl⟩
abbrev main_v81 : Ref sig .tc := ⟨.hbm, 106, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S600000 : S_.BroadcastsInDim S600000 (![] : Fin 0 → Fin S600000.rank)
  slices_S2x256x128_S1x256x128_0_0_0 : S2x256x128.Slices ![0, 0, 0] S1x256x128
  shapeCasts_S1x256x128_S256x128 : S1x256x128.ShapeCasts S256x128
  slices_S2x600000_S1x600000_0_0 : S2x600000.Slices ![0, 0] S1x600000
  shapeCasts_S1x600000_S600000 : S1x600000.ShapeCasts S600000
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  slices_S2x256x128_S1x256x128_1_0_0 : S2x256x128.Slices ![1, 0, 0] S1x256x128
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelFrame.lean ====
/- The frame of the two-region program `Cert.Kernel`, at any float instance: at the compiled mesh, from any
   memory with every counter at zero, every weakly fair execution of @main on the TensorCores terminates and none
   faults; at the end each region's output array holds, block by block, what the region's body stores there (a closed
   function of the input blocks at the point), every other buffer holds what the host operations before and between the
   regions make of the launch memory, and the seven argument arrays hold what they held at launch.

   Per region, at a parameter `V` (the TensorCore's buffer contents when the region is entered): each window's block
   at a grid point (`iblkK`); what the body leaves in the output window's buffer, the canonical contents of its one
   whole store over the payload of its loads (`outK_W`); the body's triple (`sound_kernelK`; the body also loads the
   output buffer before it stores, a load at contents nobody chose, whose value it does not use); the pipeline's proof
   data (`datK`) and the body obligation at every point (`body_obligationK`).
   Then the run: the buffer contents at each boundary between a stretch of host operations and a region, a fold from
   the launch memory (`W0` … `W4`); each argument array read back through the fold to its launch contents
   (`W4_main_argK`: no host operation writes an argument and no region has one as a window's array); the two regions
   as segments over the thread state "every unscoped buffer at the boundary's contents, the generator register at some
   state, nothing owed" (`reg0`, `reg1`); the launch over the four segments with every unscoped buffer read at the end
   (`run_all`), and the frame claim from it (`frame`). -/
import proofs.«172103_j40905268527669_1_alg».proof.Proof.Gen.Kernel.Launch
import proofs.«172103_j40905268527669_1_alg».proof.Proof.Gen.Kernel.Skeleton
import proofs.«172103_j40905268527669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: every region's half is stated at it, and the run
-- instantiates it per region
variable (V : (c : Dev nD) → (b : Ref sig .tc) → Buf (Elt F) ((c : Thread nD τ).loc b))

/-! # Region 0: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s (`hA`) and whose body leaves the block in place (`hafter`): where it is not fetched the block
    index has not moved. The windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x256 := Rect.unit (s := S2000x256) ![0, 0] S2000x256.size inb_S2000x256_S2000x256_0_0
abbrev r0_1 : Rect S256x512 := Rect.unit (s := S256x512) ![0, 0] S256x512.size inb_S256x512_S256x512_0_0
abbrev r0_2 : Rect S2000x512 := Rect.unit (s := S2000x512) ![0, 0] S2000x512.size inb_S2000x512_S2000x512_0_0

/-! ## What the body leaves in the output window's buffer -/

/-- Window 2's staging buffer after the body, from the input windows' blocks: its one store, of the whole buffer, of
    the product of the two loaded blocks. -/
def out0_2 (x0 : Vec F S2000x256 .bf16) (x1 : Vec F S256x512 .bf16) : Vec F S2000x512 .f32 :=
  View.canon [⟨r0_2, k0_pay1 (View.ld x0 r0_0) (View.ld x1 r0_1)⟩]

/-- The store covers the buffer. -/
theorem cover0_2 (p0 : Vec F S2000x512 .f32) (y : S2000x512.Idx) :
    ∃ pc ∈ ([⟨r0_2, p0⟩] : List (View.Piece (Elt F) S2000x512 .f32)), y ∈ pc.1.set :=
  View.cover_of_tiled [⟨r0_2, p0⟩] S2000x512.size (by rfl) y

/-! ## The body's triple -/

set_option maxHeartbeats 1000000 in
/-- The kernel body on whole staging memrefs, the inputs' at read contents `x0`, `x1` and the output's at anything, runs
    to the continuation holding the inputs' as they were and the output's at `out0_2 x0 x1`: the printed function is
    its skeleton, whose loads and store are run one by one. -/
theorem sound_kernel0 (c : Dev nD) (E : Set ℕ) (i : grid0.Coords) (arg1 : Memref sig .tc .vmem S2000x256 .bf16) (harg1 : arg1.IsWhole) (arg2 : Memref sig .tc .vmem S256x512 .bf16) (harg2 : arg2.IsWhole) (arg3 : Memref sig .tc .vmem S2000x512 .f32) (harg3 : arg3.IsWhole)
    (x0 : Vec F S2000x256 .bf16) (x1 : Vec F S256x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the combining kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2000x128 := Rect.unit (s := S2000x128) ![0, 0] S2000x128.size inb_S2000x128_S2000x128_0_0
abbrev r1_4 : Rect S1x128 := Rect.unit (s := S1x128) ![0, 0] S1x128.size inb_S1x128_S1x128_0_0

/-! ## What the body leaves in the output window's buffer -/

/-- Window 5's staging buffer after the body, from the input windows' blocks: its one store, of the whole buffer. -/
def out1_5 (x0 : Vec F S2000x128 .f32) (x1 : Vec F S2000x128 .f32) (x2 : Vec F S2000x128 .f32) (x3 : Vec F S2000x128 .f32) (x4 : Vec F S1x128 .f32) : Vec F S2000x128 .f32 :=
  View.canon [⟨r1_0, k1_pay1 (View.ld x0 r1_0) (View.ld x1 r1_0) (View.ld x2 r1_0) (View.ld x3 r1_0) (View.ld x4 r1_4)⟩]

/-- The store covers the buffer. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `x0` … `x4` and the output's at anything, runs
    to the continuation holding the inputs' as they were and the output's at `out1_5` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S2000x128 .f32) (x3 : Vec F S2000x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_combine_kernel i arg1 harg1 arg2 harg2 arg3 harg3 arg4 harg4 arg5 harg5 arg6 harg6) K := by
  simp only [cc1_combine_kernel_eq_skeleton]; unfold cc1_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one and no region has one as a window's array, so the
    fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along: it
    ends with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left with every unscoped buffer at
    `W2`. Its arrays are split out of the unscoped buffers at entry and put back at their exit contents; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with every unscoped buffer at
    `W4`. Its arrays are split out of the unscoped buffers at entry and put back at their exit contents; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state has every unscoped TensorCore buffer at the last boundary's
    contents `W4`: the launch over the four segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim of the program (`Cert.frame_Kernel`'s statement, at any float instance): every weakly fair
    execution terminates without a fault and every final state has the seven argument arrays as launched — each an
    unscoped buffer, read at the end at `W4`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_all m ρ)

/-- info: 'Cert.Kernel.Hand.frame' depends on axioms: [propext, Classical.choice, Quot.sound] -/
#guard_msgs in #print axioms frame

end Cert.Kernel.Hand

end
-- ==== Proof.KernelIdealFrame.lean ====
/- The frame of the two-region program `Cert.KernelIdeal`, at any float instance: at the compiled mesh, from any
   memory with every counter at zero, every weakly fair execution of @main on the TensorCores terminates and none
   faults; at the end each region's output array holds, block by block, what the region's body stores there (a closed
   function of the input blocks at the point), every other buffer holds what the host operations before and between the
   regions make of the launch memory, and the seven argument arrays hold what they held at launch.

   Per region, at a parameter `V` (the TensorCore's buffer contents when the region is entered): each window's block
   at a grid point (`iblkK`); what the body leaves in the output window's buffer, the canonical contents of its one
   whole store over the payload of its loads (`outK_W`); the body's triple (`sound_kernelK`; the body also loads the
   output buffer before it stores, a load at contents nobody chose, whose value it does not use); the pipeline's proof
   data (`datK`) and the body obligation at every point (`body_obligationK`).
   Then the run: the buffer contents at each boundary between a stretch of host operations and a region, a fold from
   the launch memory (`W0` … `W4`); each argument array read back through the fold to its launch contents
   (`W4_main_argK`: no host operation writes an argument and no region has one as a window's array); the two regions
   as segments over the thread state "every unscoped buffer at the boundary's contents, the generator register at some
   state, nothing owed" (`reg0`, `reg1`); the launch over the four segments with every unscoped buffer read at the end
   (`run_all`), and the frame claim from it (`frame`). -/
import proofs.«172103_j40905268527669_1_alg».proof.Proof.Gen.KernelIdeal.Launch
import proofs.«172103_j40905268527669_1_alg».proof.Proof.Gen.KernelIdeal.Skeleton
import proofs.«172103_j40905268527669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: every region's half is stated at it, and the run
-- instantiates it per region
variable (V : (c : Dev nD) → (b : Ref sig .tc) → Buf (Elt F) ((c : Thread nD τ).loc b))

/-! # Region 0: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s (`hA`) and whose body leaves the block in place (`hafter`): where it is not fetched the block
    index has not moved. The windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x256 := Rect.unit (s := S2000x256) ![0, 0] S2000x256.size inb_S2000x256_S2000x256_0_0
abbrev r0_1 : Rect S256x512 := Rect.unit (s := S256x512) ![0, 0] S256x512.size inb_S256x512_S256x512_0_0
abbrev r0_2 : Rect S2000x512 := Rect.unit (s := S2000x512) ![0, 0] S2000x512.size inb_S2000x512_S2000x512_0_0

/-! ## What the body leaves in the output window's buffer -/

/-- Window 2's staging buffer after the body, from the input windows' blocks: its one store, of the whole buffer, of
    the product of the two loaded blocks. -/
def out0_2 (x0 : Vec F S2000x256 .bf16) (x1 : Vec F S256x512 .bf16) : Vec F S2000x512 .f32 :=
  View.canon [⟨r0_2, k0_pay1 (View.ld x0 r0_0) (View.ld x1 r0_1)⟩]

/-- The store covers the buffer. -/
theorem cover0_2 (p0 : Vec F S2000x512 .f32) (y : S2000x512.Idx) :
    ∃ pc ∈ ([⟨r0_2, p0⟩] : List (View.Piece (Elt F) S2000x512 .f32)), y ∈ pc.1.set :=
  View.cover_of_tiled [⟨r0_2, p0⟩] S2000x512.size (by rfl) y

/-! ## The body's triple -/

set_option maxHeartbeats 1000000 in
/-- The kernel body on whole staging memrefs, the inputs' at read contents `x0`, `x1` and the output's at anything, runs
    to the continuation holding the inputs' as they were and the output's at `out0_2 x0 x1`: the printed function is
    its skeleton, whose loads and store are run one by one. -/
theorem sound_kernel0 (c : Dev nD) (E : Set ℕ) (i : grid0.Coords) (arg1 : Memref sig .tc .vmem S2000x256 .bf16) (harg1 : arg1.IsWhole) (arg2 : Memref sig .tc .vmem S256x512 .bf16) (harg2 : arg2.IsWhole) (arg3 : Memref sig .tc .vmem S2000x512 .f32) (harg3 : arg3.IsWhole)
    (x0 : Vec F S2000x256 .bf16) (x1 : Vec F S256x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the combining kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2000x128 := Rect.unit (s := S2000x128) ![0, 0] S2000x128.size inb_S2000x128_S2000x128_0_0
abbrev r1_4 : Rect S1x128 := Rect.unit (s := S1x128) ![0, 0] S1x128.size inb_S1x128_S1x128_0_0

/-! ## What the body leaves in the output window's buffer -/

/-- Window 5's staging buffer after the body, from the input windows' blocks: its one store, of the whole buffer. -/
def out1_5 (x0 : Vec F S2000x128 .f32) (x1 : Vec F S2000x128 .f32) (x2 : Vec F S2000x128 .f32) (x3 : Vec F S2000x128 .f32) (x4 : Vec F S1x128 .f32) : Vec F S2000x128 .f32 :=
  View.canon [⟨r1_0, k1_pay1 (View.ld x0 r1_0) (View.ld x1 r1_0) (View.ld x2 r1_0) (View.ld x3 r1_0) (View.ld x4 r1_4)⟩]

/-- The store covers the buffer. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `x0` … `x4` and the output's at anything, runs
    to the continuation holding the inputs' as they were and the output's at `out1_5` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x128 .f32) (x2 : Vec F S2000x128 .f32) (x3 : Vec F S2000x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_combine_kernel i arg1 harg1 arg2 harg2 arg3 harg3 arg4 harg4 arg5 harg5 arg6 harg6) K := by
  simp only [cc1_combine_kernel_eq_skeleton]; unfold cc1_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one and no region has one as a window's array, so the
    fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along: it
    ends with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left with every unscoped buffer at
    `W2`. Its arrays are split out of the unscoped buffers at entry and put back at their exit contents; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with every unscoped buffer at
    `W4`. Its arrays are split out of the unscoped buffers at entry and put back at their exit contents; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state has every unscoped TensorCore buffer at the last boundary's
    contents `W4`: the launch over the four segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim of the program (`Cert.frame_KernelIdeal`'s statement, at any float instance): every weakly fair
    execution terminates without a fault and every final state has the seven argument arrays as launched — each an
    unscoped buffer, read at the end at `W4`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_all m ρ)

/-- info: 'Cert.KernelIdeal.Hand.frame' depends on axioms: [propext, Classical.choice, Quot.sound] -/
#guard_msgs in #print axioms frame

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.KernelPayloads.lean ====
/-
  The two kernel bodies' stored values, read entry by entry at the ideal instance (every float an extended real,
  every operation exact).  The first body stores the product of its row block with the weight matrix: entry (p, q)
  is the sum over k of left (p, k) times right (k, q).  The second stores, entry by entry, half the sum of four
  blocks plus a row, cut off below at zero.
-/
import proofs.«172103_j40905268527669_1_alg».proof.Proof.Gen.KernelIdeal.Skeleton
import proofs.«172103_j40905268527669_1_alg».proof.Proof.LibDotRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.Hand Idealize.ShloMosaic Idealize.SL.Sem

/-- The first body's stored block at entry (p, q): the row p of the left block against the column q of the right. -/
theorem pay0_apply (v0 : Vec Ideal S2000x256 .bf16) (v2 : Vec Ideal S256x512 .bf16) (p : Fin 2000) (q : Fin 512) :
    k0_pay1 (F := Ideal) v0 v2 (ValueIdx.ix2 p q) = ∑ k : Fin 256, v0 (ValueIdx.ix2 p k) * v2 (ValueIdx.ix2 k q) := by
  unfold k0_pay1
  simp only [shapeCast_self]
  refine (Ideal.matmul_constant_zero_apply (φ₁ := FTy.bf16) (φ₂ := FTy.bf16) dot_S2000x256_S256x512_S2000x512_1_0_0_1_n_n none v0 v2 (ValueIdx.ix2 p q)).trans ?_
  generalize v0 = l
  generalize v2 = r
  dot_rows dot_S2000x256_S256x512_S2000x512_1_0_0_1_n_n S2000x256 S256x512 256

/-- The second body's stored block at entry (p, q). -/
theorem pay1_apply (v0 v2 v5 v8 : Vec Ideal S2000x128 .f32) (v13 : Vec Ideal S1x128 .f32) (p : Fin 2000) (q : Fin 128) :
    k1_pay1 (F := Ideal) v0 v2 v5 v8 v13 (ValueIdx.ix2 p q)
      = max ((((v0 (ValueIdx.ix2 p q) + v2 (ValueIdx.ix2 p q)) + v5 (ValueIdx.ix2 p q)) + v8 (ValueIdx.ix2 p q))
              * Ideal.ofBits .f32 0x3F000000#32 + v13 (ValueIdx.ix2 (0 : Fin 1) q)) (Ideal.ofBits .f32 0x00000000#32) := by
  unfold k1_pay1
  simp only [shapeCast_self]
  refine congrArg₂ max ?_ rfl
  refine congrArg₂ (· + ·) rfl ?_
  exact ValueIdx.broadcastTo_1b_ab_apply v13 broadcasts_S1x128_S2000x128 p q

end Cert.KernelIdeal.HandValue

end
-- ==== Proof.KernelSpec.lean ====
/-
  The two whole-array functions the kernels compute, entry by entry over the extended reals: the product of the
  node features with the four weight matrices laid side by side, and the combination of the four aggregated arrays
  with the bias — half their sum, plus the bias row, cut off below at zero.
-/
import proofs.«172103_j40905268527669_1_alg».proof.KernelIdeal
import Idealize.ShloMosaic.PureOps.Ideal
import Idealize.ShloMosaic.Lib.ValueIdx

noncomputable section

namespace Cert.KernelIdeal.HandValue

open Cert.KernelIdeal Idealize.ShloMosaic

/-- The product of a [50000,256] array with a [256,512] array, entry by entry. -/
def projAll (x : S50000x256.Idx → EReal) (w : S256x512.Idx → EReal) : S50000x512.Idx → EReal :=
  fun i => ∑ k : Fin 256, x (ValueIdx.ix2 (⟨(i 0).val, (i 0).isLt⟩ : Fin 50000) k) * w (ValueIdx.ix2 k (⟨(i 1).val, (i 1).isLt⟩ : Fin 512))

/-- Half the sum of four arrays plus a row, cut off below at zero, entry by entry. -/
def combineAll (a b d e : S50000x128.Idx → EReal) (r : S1x128.Idx → EReal) : S50000x128.Idx → EReal :=
  fun i => max ((((a i + b i) + d i) + e i) * Ideal.ofBits .f32 0x3F000000#32
    + r (ValueIdx.ix2 (0 : Fin 1) (⟨(i 1).val, (i 1).isLt⟩ : Fin 128))) (Ideal.ofBits .f32 0x00000000#32)

end Cert.KernelIdeal.HandValue

end
-- ==== Proof.KernelArrays.lean ====
/-
  What the two regions' output arrays hold after all their grid points, as whole-array functions at the ideal
  instance.  Region 0: point t owns rows 2000 t … 2000 t + 1999 of the output and stores there the product of the
  same rows of the left array with the whole right array, so the array ends holding the whole product.  Region 1:
  point t owns the same rows of its output and stores there, entry by entry, half the sum of the four input arrays
  plus the bias row, cut off below at zero.  In both the point covering row r is r / 2000.
-/
import proofs.«172103_j40905268527669_1_alg».proof.Proof.KernelIdealFrame
import proofs.«172103_j40905268527669_1_alg».proof.Proof.KernelPayloads
import proofs.«172103_j40905268527669_1_alg».proof.Proof.KernelSpec
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-! ## Region 0: the product -/

/-- The index maps over the grid: the left array's and the output's blocks are at row block t, column block 0; the
    right array's one block is the whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the product of a row block with the right array is the whole product's entry at i, when the row
    block's row p is the left array's row i 0 and q is i 1. -/
theorem block0_entry (A : S50000x256.Idx → EReal) (W : S256x512.Idx → EReal)
    (x0 : Vec Ideal S2000x256 .bf16) (x1 : Vec Ideal S256x512 .bf16) (i : S50000x512.Idx) (p : Fin 2000) (q : Fin 512)
    (h0 : ∀ k : Fin 256, x0 (ValueIdx.ix2 p k) = A (ValueIdx.ix2 (⟨(i 0).val, (i 0).isLt⟩ : Fin 50000) k))
    (h1 : ∀ k : Fin 256, x1 (ValueIdx.ix2 k q) = W (ValueIdx.ix2 k (⟨(i 1).val, (i 1).isLt⟩ : Fin 512))) :
    k0_pay1 (F := Ideal) x0 x1 (ValueIdx.ix2 p q) = projAll A W i := by
  refine (pay0_apply x0 x1 p q).trans ?_
  unfold projAll
  exact Finset.sum_congr rfl fun k _ => by rw [h0 k, h1 k]

/-- What point t writes back is block t of the whole product. -/
theorem flushed0_eq (c : Dev nD) (t : Fin cfg0.N) :
    (dat0 (F := Ideal) V c).flushed 2 t
      = ((cfg0.win 2).blk t).view.read (Elt Ideal) (projAll (V c main_v9) (V c main_v10)) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x512) hz]
  obtain ⟨e00, e01, e10, e11, e20, e21⟩ := idx_facts0 t
  refine funext fun (j : S2000x512.Idx) => ?_
  obtain ⟨p, q, rfl⟩ : ∃ (p : Fin 2000) (q : Fin 512), j = ValueIdx.ix2 p q := ⟨j 0, j 1, ValueIdx.eq_ix2 j⟩
  show k0_pay1 (F := Ideal) (iblk0 V c 0 t) (iblk0 V c 1 t) (ValueIdx.ix2 p q)
    = projAll (V c main_v9) (V c main_v10) (((cfg0.win 2).blk t).view.emb (ValueIdx.ix2 p q))
  refine block0_entry (V c main_v9) (V c main_v10) (iblk0 V c 0 t) (iblk0 V c 1 t) (((cfg0.win 2).blk t).view.emb (ValueIdx.ix2 p q)) p q (fun k => ?_) (fun k => ?_)
  · show V c main_v9 (((cfg0.win 0).blk t).view.emb (ValueIdx.ix2 p k)) = V c main_v9 _
    refine congrArg (V c main_v9) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  · show V c main_v10 (((cfg0.win 1).blk t).view.emb (ValueIdx.ix2 k q)) = V c main_v10 _
    refine congrArg (V c main_v10) (funext fun a => Fin.ext ?_)
    match a with
    | ⟨0, _⟩ => show win0_1.index t (0 : Fin 2) * 256 + 1 * k.val = k.val; omega
    | ⟨1, _⟩ => show win0_1.index t (1 : Fin 2) * 512 + 1 * q.val = win0_2.index t (1 : Fin 2) * 512 + 1 * q.val; omega

/-- An index of the output array is in point t's block iff each coordinate is in the block's range on its axis. -/
theorem mem_blk0 (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v11).slice (win0_2.rect t)).set ↔ _
  rw [View.set_slice_whole, Rect.mem_set_unit]
  exact Iff.rfl

/-- Every entry of the output array is in the block of the point its row falls to. -/
theorem cover0 (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  have ht : (i 0).val / 2000 < cfg0.N := by rw [hN]; omega
  refine ⟨⟨(i 0).val / 2000, ht⟩, flush0_2 _, ?_⟩
  obtain ⟨-, -, -, -, e20, e21⟩ := idx_facts0 ⟨(i 0).val / 2000, ht⟩
  rw [mem_blk0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; rw [e20]; show (i 0).val / 2000 * 2000 ≤ (i 0).val ∧ (i 0).val < (i 0).val / 2000 * 2000 + 2000; omega
  | ⟨1, _⟩ => show win0_2.index ⟨(i 0).val / 2000, ht⟩ (1 : Fin 2) * 512 ≤ (i 1).val ∧ (i 1).val < win0_2.index ⟨(i 0).val / 2000, ht⟩ (1 : Fin 2) * 512 + 512; rw [e21]; omega

/-- After all its points, region 0's output array is the whole product. -/
theorem final0 (c : Dev nD) :
    (dat0 (F := Ideal) V c).arrAt 2 cfg0.N = projAll (V c main_v9) (V c main_v10) :=
  (dat0 (F := Ideal) V c).arrAt_eq_of_cover 2 (projAll (V c main_v9) (V c main_v10)) (fun t _ => flushed0_eq V c t) cover0

/-! ## Region 1: the combination -/

/-- The index maps over the grid: the four input arrays' and the output's blocks are at row block t, column block 0;
    the bias row's one block is the whole array. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of the combination of four row blocks and the bias row is the whole combination's entry at i, when
    each block's entry (p, q) is its array's entry i and the row's entry q is the bias row's entry i 1. -/
theorem block1_entry (a b d e : S50000x128.Idx → EReal) (r : S1x128.Idx → EReal)
    (x0 x1 x2 x3 : Vec Ideal S2000x128 .f32) (x4 : Vec Ideal S1x128 .f32) (i : S50000x128.Idx) (p : Fin 2000) (q : Fin 128)
    (h0 : x0 (ValueIdx.ix2 p q) = a i) (h1 : x1 (ValueIdx.ix2 p q) = b i) (h2 : x2 (ValueIdx.ix2 p q) = d i) (h3 : x3 (ValueIdx.ix2 p q) = e i)
    (h4 : x4 (ValueIdx.ix2 (0 : Fin 1) q) = r (ValueIdx.ix2 (0 : Fin 1) (⟨(i 1).val, (i 1).isLt⟩ : Fin 128))) :
    k1_pay1 (F := Ideal) x0 x1 x2 x3 x4 (ValueIdx.ix2 p q) = combineAll a b d e r i := by
  refine (pay1_apply x0 x1 x2 x3 x4 p q).trans ?_
  unfold combineAll
  rw [h0, h1, h2, h3, h4]

/-- What point t writes back is block t of the whole combination. -/
theorem flushed1_eq (c : Dev nD) (t : Fin cfg1.N) :
    (dat1 (F := Ideal) V c).flushed 5 t
      = ((cfg1.win 5).blk t).view.read (Elt Ideal) (combineAll (V c main_v37) (V c main_v40) (V c main_v62) (V c main_v65) (V c main_v66)) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S1x128) hz]
  obtain ⟨e00, e01, e10, e11, e20, e21, e30, e31, e40, e41, e50, e51⟩ := idx_facts1 t
  refine funext fun (j : S2000x128.Idx) => ?_
  obtain ⟨p, q, rfl⟩ : ∃ (p : Fin 2000) (q : Fin 128), j = ValueIdx.ix2 p q := ⟨j 0, j 1, ValueIdx.eq_ix2 j⟩
  show k1_pay1 (F := Ideal) (iblk1 V c 0 t) (iblk1 V c 1 t) (iblk1 V c 2 t) (iblk1 V c 3 t) (iblk1 V c 4 t) (ValueIdx.ix2 p q)
    = combineAll (V c main_v37) (V c main_v40) (V c main_v62) (V c main_v65) (V c main_v66) (((cfg1.win 5).blk t).view.emb (ValueIdx.ix2 p q))
  refine block1_entry (V c main_v37) (V c main_v40) (V c main_v62) (V c main_v65) (V c main_v66)
    (iblk1 V c 0 t) (iblk1 V c 1 t) (iblk1 V c 2 t) (iblk1 V c 3 t) (iblk1 V c 4 t) (((cfg1.win 5).blk t).view.emb (ValueIdx.ix2 p q)) p q ?_ ?_ ?_ ?_ ?_
  · show V c main_v37 (((cfg1.win 0).blk t).view.emb (ValueIdx.ix2 p q)) = V c main_v37 (((cfg1.win 5).blk t).view.emb (ValueIdx.ix2 p q))
    refine congrArg (V c main_v37) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * q.val = win1_5.index t (1 : Fin 2) * 128 + 1 * q.val; omega
  · show V c main_v40 (((cfg1.win 1).blk t).view.emb (ValueIdx.ix2 p q)) = V c main_v40 (((cfg1.win 5).blk t).view.emb (ValueIdx.ix2 p q))
    refine congrArg (V c main_v40) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * q.val = win1_5.index t (1 : Fin 2) * 128 + 1 * q.val; omega
  · show V c main_v62 (((cfg1.win 2).blk t).view.emb (ValueIdx.ix2 p q)) = V c main_v62 (((cfg1.win 5).blk t).view.emb (ValueIdx.ix2 p q))
    refine congrArg (V c main_v62) (funext fun a => Fin.ext ?_)
    match a with
    | ⟨0, _⟩ => show win1_2.index t (0 : Fin 2) * 2000 + 1 * p.val = win1_5.index t (0 : Fin 2) * 2000 + 1 * p.val; omega
    | ⟨1, _⟩ => show win1_2.index t (1 : Fin 2) * 128 + 1 * q.val = win1_5.index t (1 : Fin 2) * 128 + 1 * q.val; omega
  · show V c main_v65 (((cfg1.win 3).blk t).view.emb (ValueIdx.ix2 p q)) = V c main_v65 (((cfg1.win 5).blk t).view.emb (ValueIdx.ix2 p q))
    refine congrArg (V c main_v65) (funext fun a => Fin.ext ?_)
    match a with
    | ⟨0, _⟩ => show win1_3.index t (0 : Fin 2) * 2000 + 1 * p.val = win1_5.index t (0 : Fin 2) * 2000 + 1 * p.val; omega
    | ⟨1, _⟩ => show win1_3.index t (1 : Fin 2) * 128 + 1 * q.val = win1_5.index t (1 : Fin 2) * 128 + 1 * q.val; omega
  · show V c main_v66 (((cfg1.win 4).blk t).view.emb (ValueIdx.ix2 (0 : Fin 1) q)) = V c main_v66 _
    refine congrArg (V c main_v66) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v67).slice (win1_5.rect t)).set ↔ _
  rw [View.set_slice_whole, Rect.mem_set_unit]
  exact Iff.rfl

/-- Every entry of the output array is in the block of the point its row falls to. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_5 _, ?_⟩
  obtain ⟨-, -, -, -, -, -, -, -, -, -, e50, e51⟩ := idx_facts1 ⟨(i 0).val / 2000, ht⟩
  rw [mem_blk1]
  intro a
  match a with
  | ⟨0, _⟩ => show win1_5.index ⟨(i 0).val / 2000, ht⟩ (0 : Fin 2) * 2000 ≤ (i 0).val ∧ (i 0).val < win1_5.index ⟨(i 0).val / 2000, ht⟩ (0 : Fin 2) * 2000 + 2000; rw [e50]; show (i 0).val / 2000 * 2000 ≤ (i 0).val ∧ (i 0).val < (i 0).val / 2000 * 2000 + 2000; omega
  | ⟨1, _⟩ => show win1_5.index ⟨(i 0).val / 2000, ht⟩ (1 : Fin 2) * 128 ≤ (i 1).val ∧ (i 1).val < win1_5.index ⟨(i 0).val / 2000, ht⟩ (1 : Fin 2) * 128 + 128; rw [e51]; omega

/-- After all its points, region 1's output array is the whole combination. -/
theorem final1 (c : Dev nD) :
    (dat1 (F := Ideal) V c).arrAt 5 cfg1.N = combineAll (V c main_v37) (V c main_v40) (V c main_v62) (V c main_v65) (V c main_v66) :=
  (dat1 (F := Ideal) V c).arrAt_eq_of_cover 5 (combineAll (V c main_v37) (V c main_v40) (V c main_v62) (V c main_v65) (V c main_v66)) (fun t _ => flushed1_eq V c t) cover1

end Cert.KernelIdeal.HandValue

end
-- ==== Proof.KernelHost.lean ====
/-
  The host operations around the two kernels, read as functions. Before the first kernel the program casts the
  node features and lays the four weight matrices side by side; between the kernels it cuts the projected
  features into four column bands, gathers each band's rows at the edges' source nodes, scales two of the
  gathered arrays by the edge values and adds every edge's row into its target node's row; the bias becomes a
  one-row matrix. Each result is stated as the composition of these operations applied to the buffers the
  stretch starts from, whatever those hold.
-/
import proofs.«172103_j40905268527669_1_alg».proof.Proof.Gen.KernelIdeal.Launch
import proofs.«172103_j40905268527669_1_alg».proof.Proof.Gen.ReferenceIdeal.Read
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

/-- The contents of a buffer of a given shape and element type, at the exact instance. -/
abbrev C (s : Shape) (e : EltTy) : Type := (⟨s, e⟩ : BufTy).Contents (Elt Ideal)

variable (W : Valuation τ sig (Elt Ideal))

/-- The four weight matrices laid side by side along the columns: A of support 0, B of support 0, A of support 1,
    B of support 1. -/
def wcat (x2 x3 : (⟨S2x256x128, .f32⟩ : BufTy).Contents (Elt Ideal)) : (⟨S256x512, .f32⟩ : BufTy).Contents (Elt Ideal) :=
  concatenate S256x512 1 [⟨S256x128, Cert.ReferenceIdeal.Read.val_main_v3 (F := Ideal) x2⟩, ⟨S256x128, Cert.ReferenceIdeal.Read.val_main_v6 (F := Ideal) x3⟩,
    ⟨S256x128, Cert.ReferenceIdeal.Read.val_main_v41 (F := Ideal) x2⟩, ⟨S256x128, Cert.ReferenceIdeal.Read.val_main_v44 (F := Ideal) x3⟩]
    Facts₀.concatenates_S256x128_S256x128_S256x128_S256x128_S256x512_d1

theorem host0_v9 : (StableHlo.after (hostOps0 (F := Ideal)) W (Proc.devRef .tc main_v9) : C S50000x256 .bf16)
    = truncf (F := Ideal) (s := S50000x256) .bf16 (W (Proc.devRef .tc main_arg0)) Facts₀.bitsLt_bf16_f32 := by
  after_results <;> rfl

theorem host0_v10 : (StableHlo.after (hostOps0 (F := Ideal)) W (Proc.devRef .tc main_v10) : C S256x512 .bf16)
    = truncf (F := Ideal) (s := S256x512) .bf16 (wcat (W (Proc.devRef .tc main_arg2)) (W (Proc.devRef .tc main_arg3))) Facts₀.bitsLt_bf16_f32 := by
  after_results <;> rfl

/-- Column band `k` of the projected features (columns 128 k … 128 k + 127). -/
def band0 (p : C S50000x512 .f32) : C S50000x128 .f32 := extractStridedSlice S50000x128 ![0, 0] p Facts₀.slices_S50000x512_S50000x128_0_0
def band1 (p : C S50000x512 .f32) : C S50000x128 .f32 := extractStridedSlice S50000x128 ![0, 128] p Facts₀.slices_S50000x512_S50000x128_0_128
def band2 (p : C S50000x512 .f32) : C S50000x128 .f32 := extractStridedSlice S50000x128 ![0, 256] p Facts₀.slices_S50000x512_S50000x128_0_256
def band3 (p : C S50000x512 .f32) : C S50000x128 .f32 := extractStridedSlice S50000x128 ![0, 384] p Facts₀.slices_S50000x512_S50000x128_0_384

set_option maxRecDepth 100000 in
set_option maxHeartbeats 4000000 in
/-- Support 0, unweighted: every edge adds the source node's row of band 0 into its target node's row. -/
theorem host1_v37 : (StableHlo.after (hostOps1 (F := Ideal)) W (Proc.devRef .tc main_v37) : C S50000x128 .f32)
    = Host.scatterAdd (F := Ideal) (φ := .f32) Cert.ReferenceIdeal.scatter_S50000x128_S600000x1_S600000x128_1_0_0_1 (Cert.ReferenceIdeal.Read.val_main_v33 (F := Ideal)) (Cert.ReferenceIdeal.Read.val_main_v34 (F := Ideal) (W (Proc.devRef .tc main_arg5)))
        (Host.gather (α := Ideal .f32) Cert.ReferenceIdeal.gather_S50000x128_S600000x1_S600000x128_1_0_n_n_0_1_1128 (band0 (W (Proc.devRef .tc main_v11))) (Cert.ReferenceIdeal.Read.val_main_v29 (F := Ideal) (W (Proc.devRef .tc main_arg6)))) := by
  after_results_simp <;> rfl

set_option maxRecDepth 100000 in
set_option maxHeartbeats 4000000 in
/-- Support 0, weighted: the gathered rows of band 1 are first scaled by the edge values of support 0. -/
theorem host1_v40 : (StableHlo.after (hostOps1 (F := Ideal)) W (Proc.devRef .tc main_v40) : C S50000x128 .f32)
    = Host.scatterAdd (F := Ideal) (φ := .f32) Cert.ReferenceIdeal.scatter_S50000x128_S600000x1_S600000x128_1_0_0_1 (Cert.ReferenceIdeal.Read.val_main_v20 (F := Ideal)) (Cert.ReferenceIdeal.Read.val_main_v21 (F := Ideal) (W (Proc.devRef .tc main_arg5)))
        (mulf (F := Ideal) (φ := .f32) (Host.gather (α := Ideal .f32) Cert.ReferenceIdeal.gather_S50000x128_S600000x1_S600000x128_1_0_n_n_0_1_1128 (band1 (W (Proc.devRef .tc main_v11))) (Cert.ReferenceIdeal.Read.val_main_v16 (F := Ideal) (W (Proc.devRef .tc main_arg6)))) (Cert.ReferenceIdeal.Read.val_main_v18 (F := Ideal) (W (Proc.devRef .tc main_arg1)))) := by
  after_results_simp <;> rfl

set_option maxRecDepth 100000 in
set_option maxHeartbeats 4000000 in
/-- Support 1, unweighted (band 2). -/
theorem host1_v62 : (StableHlo.after (hostOps1 (F := Ideal)) W (Proc.devRef .tc main_v62) : C S50000x128 .f32)
    = Host.scatterAdd (F := Ideal) (φ := .f32) Cert.ReferenceIdeal.scatter_S50000x128_S600000x1_S600000x128_1_0_0_1 (Cert.ReferenceIdeal.Read.val_main_v71 (F := Ideal)) (Cert.ReferenceIdeal.Read.val_main_v72 (F := Ideal) (W (Proc.devRef .tc main_arg5)))
        (Host.gather (α := Ideal .f32) Cert.ReferenceIdeal.gather_S50000x128_S600000x1_S600000x128_1_0_n_n_0_1_1128 (band2 (W (Proc.devRef .tc main_v11))) (Cert.ReferenceIdeal.Read.val_main_v67 (F := Ideal) (W (Proc.devRef .tc main_arg6)))) := by
  after_results_simp <;> rfl

set_option maxRecDepth 100000 in
set_option maxHeartbeats 4000000 in
/-- Support 1, weighted (band 3, the edge values of support 1). -/
theorem host1_v65 : (StableHlo.after (hostOps1 (F := Ideal)) W (Proc.devRef .tc main_v65) : C S50000x128 .f32)
    = Host.scatterAdd (F := Ideal) (φ := .f32) Cert.ReferenceIdeal.scatter_S50000x128_S600000x1_S600000x128_1_0_0_1 (Cert.ReferenceIdeal.Read.val_main_v58 (F := Ideal)) (Cert.ReferenceIdeal.Read.val_main_v59 (F := Ideal) (W (Proc.devRef .tc main_arg5)))
        (mulf (F := Ideal) (φ := .f32) (Host.gather (α := Ideal .f32) Cert.ReferenceIdeal.gather_S50000x128_S600000x1_S600000x128_1_0_n_n_0_1_1128 (band3 (W (Proc.devRef .tc main_v11))) (Cert.ReferenceIdeal.Read.val_main_v54 (F := Ideal) (W (Proc.devRef .tc main_arg6)))) (Cert.ReferenceIdeal.Read.val_main_v56 (F := Ideal) (W (Proc.devRef .tc main_arg1)))) := by
  after_results_simp <;> rfl

set_option maxRecDepth 100000 in
set_option maxHeartbeats 4000000 in
/-- The bias as a one-row matrix. -/
theorem host1_v66 : (StableHlo.after (hostOps1 (F := Ideal)) W (Proc.devRef .tc main_v66) : C S1x128 .f32)
    = shapeCast S1x128 (W (Proc.devRef .tc main_arg4) : C S128 .f32) Facts₀.shapeCasts_S128_S1x128 := by
  after_results_simp <;> rfl

end Cert.KernelIdeal.HostVal

end
-- ==== Proof.KernelBridge.lean ====
/-
  The two programs compute one function. Cutting column band k out of the product of the node features with the four
  weight matrices laid side by side gives the product with the k-th matrix alone; a row of ones scales nothing; a
  product commutes; and, one half being a nonnegative real, half a sum is the sum of the halves whatever the terms.
-/
import proofs.«172103_j40905268527669_1_alg».proof.Proof.KernelSpec
import proofs.«172103_j40905268527669_1_alg».proof.Proof.KernelHost
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Bridge

open Cert.KernelIdeal Cert.KernelIdeal.HostVal Cert.KernelIdeal.HandValue Idealize.ShloMosaic Idealize.ShloMosaic.TcCoe

theorem band0_proj (x0 : C S50000x256 .f32) (x2 x3 : C S2x256x128 .f32) :
    band0 (projAll (truncf (F := Ideal) (s := S50000x256) .bf16 x0 Facts₀.bitsLt_bf16_f32)
      (truncf (F := Ideal) (s := S256x512) .bf16 (wcat x2 x3) Facts₀.bitsLt_bf16_f32))
    = Cert.ReferenceIdeal.Read.val_main_v4 (F := Ideal) x0 x2 := by
  funext i
  rw [Cert.ReferenceIdeal.Read.val_main_v4_apply]
  unfold band0
  have h1 : (i 1).val < 128 := (i 1).isLt
  refine (extractStridedSlice_apply ![0, 0] _ Facts₀.slices_S50000x512_S50000x128_0_0 i
    (ValueIdx.ix2 (⟨(i 0).val, (i 0).isLt⟩ : Fin 50000) (⟨0 + (i 1).val, by omega⟩ : Fin 512))
    (fun a => match a with
      | ⟨0, _⟩ => by show (i 0).val = 0 + (i 0).val; omega
      | ⟨1, _⟩ => rfl)).trans ?_
  unfold projAll
  refine Finset.sum_congr rfl fun k _ => ?_
  refine congrArg₂ (· * ·) (congrArg x0 (funext fun a => match a with | ⟨0, _⟩ => rfl | ⟨1, _⟩ => rfl)) ?_
  show wcat x2 x3 _ = _
  unfold wcat
  refine concatenate_apply_piece (1 : Fin S256x512.rank) _ _ _ 0 (by show (0 : Nat) < 4; omega) S256x128 (Cert.ReferenceIdeal.Read.val_main_v3 (F := Ideal) x2) rfl rfl 0 rfl
    (Cert.ReferenceIdeal.Read.ridx_main_v4 i k) (fun b hb => ?_) ?_
  · match b, hb with
    | ⟨0, _⟩, _ => rfl
    | ⟨1, _⟩, hb => exact absurd rfl hb
  · rfl

theorem band1_proj (x0 : C S50000x256 .f32) (x2 x3 : C S2x256x128 .f32) :
    band1 (projAll (truncf (F := Ideal) (s := S50000x256) .bf16 x0 Facts₀.bitsLt_bf16_f32)
      (truncf (F := Ideal) (s := S256x512) .bf16 (wcat x2 x3) Facts₀.bitsLt_bf16_f32))
    = Cert.ReferenceIdeal.Read.val_main_v7 (F := Ideal) x0 x3 := by
  funext i
  rw [Cert.ReferenceIdeal.Read.val_main_v7_apply]
  unfold band1
  have h1 : (i 1).val < 128 := (i 1).isLt
  refine (extractStridedSlice_apply ![0, 128] _ Facts₀.slices_S50000x512_S50000x128_0_128 i
    (ValueIdx.ix2 (⟨(i 0).val, (i 0).isLt⟩ : Fin 50000) (⟨128 + (i 1).val, by omega⟩ : Fin 512))
    (fun a => match a with
      | ⟨0, _⟩ => by show (i 0).val = 0 + (i 0).val; omega
      | ⟨1, _⟩ => rfl)).trans ?_
  unfold projAll
  refine Finset.sum_congr rfl fun k _ => ?_
  refine congrArg₂ (· * ·) (congrArg x0 (funext fun a => match a with | ⟨0, _⟩ => rfl | ⟨1, _⟩ => rfl)) ?_
  show wcat x2 x3 _ = _
  unfold wcat
  refine concatenate_apply_piece (1 : Fin S256x512.rank) _ _ _ 1 (by show (1 : Nat) < 4; omega) S256x128 (Cert.ReferenceIdeal.Read.val_main_v6 (F := Ideal) x3) rfl rfl 128 rfl
    (Cert.ReferenceIdeal.Read.ridx_main_v7 i k) (fun b hb => ?_) ?_
  · match b, hb with
    | ⟨0, _⟩, _ => rfl
    | ⟨1, _⟩, hb => exact absurd rfl hb
  · rfl

theorem band2_proj (x0 : C S50000x256 .f32) (x2 x3 : C S2x256x128 .f32) :
    band2 (projAll (truncf (F := Ideal) (s := S50000x256) .bf16 x0 Facts₀.bitsLt_bf16_f32)
      (truncf (F := Ideal) (s := S256x512) .bf16 (wcat x2 x3) Facts₀.bitsLt_bf16_f32))
    = Cert.ReferenceIdeal.Read.val_main_v42 (F := Ideal) x0 x2 := by
  funext i
  rw [Cert.ReferenceIdeal.Read.val_main_v42_apply]
  unfold band2
  have h1 : (i 1).val < 128 := (i 1).isLt
  refine (extractStridedSlice_apply ![0, 256] _ Facts₀.slices_S50000x512_S50000x128_0_256 i
    (ValueIdx.ix2 (⟨(i 0).val, (i 0).isLt⟩ : Fin 50000) (⟨256 + (i 1).val, by omega⟩ : Fin 512))
    (fun a => match a with
      | ⟨0, _⟩ => by show (i 0).val = 0 + (i 0).val; omega
      | ⟨1, _⟩ => rfl)).trans ?_
  unfold projAll
  refine Finset.sum_congr rfl fun k _ => ?_
  refine congrArg₂ (· * ·) (congrArg x0 (funext fun a => match a with | ⟨0, _⟩ => rfl | ⟨1, _⟩ => rfl)) ?_
  show wcat x2 x3 _ = _
  unfold wcat
  refine concatenate_apply_piece (1 : Fin S256x512.rank) _ _ _ 2 (by show (2 : Nat) < 4; omega) S256x128 (Cert.ReferenceIdeal.Read.val_main_v41 (F := Ideal) x2) rfl rfl 256 rfl
    (Cert.ReferenceIdeal.Read.ridx_main_v42 i k) (fun b hb => ?_) ?_
  · match b, hb with
    | ⟨0, _⟩, _ => rfl
    | ⟨1, _⟩, hb => exact absurd rfl hb
  · rfl

theorem band3_proj (x0 : C S50000x256 .f32) (x2 x3 : C S2x256x128 .f32) :
    band3 (projAll (truncf (F := Ideal) (s := S50000x256) .bf16 x0 Facts₀.bitsLt_bf16_f32)
      (truncf (F := Ideal) (s := S256x512) .bf16 (wcat x2 x3) Facts₀.bitsLt_bf16_f32))
    = Cert.ReferenceIdeal.Read.val_main_v45 (F := Ideal) x0 x3 := by
  funext i
  rw [Cert.ReferenceIdeal.Read.val_main_v45_apply]
  unfold band3
  have h1 : (i 1).val < 128 := (i 1).isLt
  refine (extractStridedSlice_apply ![0, 384] _ Facts₀.slices_S50000x512_S50000x128_0_384 i
    (ValueIdx.ix2 (⟨(i 0).val, (i 0).isLt⟩ : Fin 50000) (⟨384 + (i 1).val, by omega⟩ : Fin 512))
    (fun a => match a with
      | ⟨0, _⟩ => by show (i 0).val = 0 + (i 0).val; omega
      | ⟨1, _⟩ => rfl)).trans ?_
  unfold projAll
  refine Finset.sum_congr rfl fun k _ => ?_
  refine congrArg₂ (· * ·) (congrArg x0 (funext fun a => match a with | ⟨0, _⟩ => rfl | ⟨1, _⟩ => rfl)) ?_
  show wcat x2 x3 _ = _
  unfold wcat
  refine concatenate_apply_piece (1 : Fin S256x512.rank) _ _ _ 3 (by show (3 : Nat) < 4; omega) S256x128 (Cert.ReferenceIdeal.Read.val_main_v44 (F := Ideal) x3) rfl rfl 384 rfl
    (Cert.ReferenceIdeal.Read.ridx_main_v45 i k) (fun b hb => ?_) ?_
  · match b, hb with
    | ⟨0, _⟩, _ => rfl
    | ⟨1, _⟩, hb => exact absurd rfl hb
  · rfl

/-! ## Ones scale nothing, and a product commutes -/

/-- The reference's array of ones (support 0) is one at every entry. -/
theorem ones31 (j : Cert.ReferenceIdeal.S600000x128.Idx) : Cert.ReferenceIdeal.Read.val_main_v31 (F := Ideal) j = 1 := by
  rw [Cert.ReferenceIdeal.Read.val_main_v31_apply, Cert.ReferenceIdeal.Read.val_main_v23_apply, Cert.ReferenceIdeal.Read.val_main_v1_apply, Cert.ReferenceIdeal.Read.val_main_cst_0_apply]
  exact Ideal.ofBits_one_f32

/-- The reference's array of ones (support 1) is one at every entry. -/
theorem ones69 (j : Cert.ReferenceIdeal.S600000x128.Idx) : Cert.ReferenceIdeal.Read.val_main_v69 (F := Ideal) j = 1 := by
  rw [Cert.ReferenceIdeal.Read.val_main_v69_apply, Cert.ReferenceIdeal.Read.val_main_v61_apply, Cert.ReferenceIdeal.Read.val_main_v1_apply, Cert.ReferenceIdeal.Read.val_main_cst_0_apply]
  exact Ideal.ofBits_one_f32

/-- Support 0, unweighted: the gathered rows are the reference's rows scaled by ones. -/
theorem unweighted0 (x0 : C S50000x256 .f32) (x2 : C S2x256x128 .f32) (x6 : C S600000 .i32) :
    Host.gather (α := Ideal .f32) Cert.ReferenceIdeal.gather_S50000x128_S600000x1_S600000x128_1_0_n_n_0_1_1128 (Cert.ReferenceIdeal.Read.val_main_v4 (F := Ideal) x0 x2) (Cert.ReferenceIdeal.Read.val_main_v29 (F := Ideal) x6)
      = Cert.ReferenceIdeal.Read.val_main_v32 (F := Ideal) x0 x2 x6 := by
  funext j
  rw [Cert.ReferenceIdeal.Read.val_main_v32_apply, ones31]
  exact (one_mul _).symm

/-- Support 1, unweighted. -/
theorem unweighted1 (x0 : C S50000x256 .f32) (x2 : C S2x256x128 .f32) (x6 : C S600000 .i32) :
    Host.gather (α := Ideal .f32) Cert.ReferenceIdeal.gather_S50000x128_S600000x1_S600000x128_1_0_n_n_0_1_1128 (Cert.ReferenceIdeal.Read.val_main_v42 (F := Ideal) x0 x2) (Cert.ReferenceIdeal.Read.val_main_v67 (F := Ideal) x6)
      = Cert.ReferenceIdeal.Read.val_main_v70 (F := Ideal) x0 x2 x6 := by
  funext j
  rw [Cert.ReferenceIdeal.Read.val_main_v70_apply, ones69]
  exact (one_mul _).symm

/-- Support 0, weighted: rows times edge values is edge values times rows. -/
theorem weighted0 (x0 : C S50000x256 .f32) (x1 : C S2x600000 .f32) (x3 : C S2x256x128 .f32) (x6 : C S600000 .i32) :
    mulf (F := Ideal) (φ := .f32) (Host.gather (α := Ideal .f32) Cert.ReferenceIdeal.gather_S50000x128_S600000x1_S600000x128_1_0_n_n_0_1_1128 (Cert.ReferenceIdeal.Read.val_main_v7 (F := Ideal) x0 x3) (Cert.ReferenceIdeal.Read.val_main_v16 (F := Ideal) x6)) (Cert.ReferenceIdeal.Read.val_main_v18 (F := Ideal) x1)
      = Cert.ReferenceIdeal.Read.val_main_v19 (F := Ideal) x0 x1 x3 x6 := by
  funext j
  rw [Cert.ReferenceIdeal.Read.val_main_v19_apply]
  exact mul_comm _ _

/-- Support 1, weighted. -/
theorem weighted1 (x0 : C S50000x256 .f32) (x1 : C S2x600000 .f32) (x3 : C S2x256x128 .f32) (x6 : C S600000 .i32) :
    mulf (F := Ideal) (φ := .f32) (Host.gather (α := Ideal .f32) Cert.ReferenceIdeal.gather_S50000x128_S600000x1_S600000x128_1_0_n_n_0_1_1128 (Cert.ReferenceIdeal.Read.val_main_v45 (F := Ideal) x0 x3) (Cert.ReferenceIdeal.Read.val_main_v54 (F := Ideal) x6)) (Cert.ReferenceIdeal.Read.val_main_v56 (F := Ideal) x1)
      = Cert.ReferenceIdeal.Read.val_main_v57 (F := Ideal) x0 x1 x3 x6 := by
  funext j
  rw [Cert.ReferenceIdeal.Read.val_main_v57_apply]
  exact mul_comm _ _

/-! ## Half a sum is the sum of the halves -/

/-- The pattern of one half is the real one half. -/
theorem ofBits_half : Ideal.ofBits .f32 0x3F000000#32 = (((1 : ℝ) / 2 : ℝ) : EReal) := by
  simp [Ideal.ofBits, Ideal.ieee, -EReal.coe_mul]; norm_num

/-- Half the sum of four terms, taken at once or pair by pair starting from zero. -/
theorem half_sum (a b d e : EReal) :
    (((a + b) + d) + e) * Ideal.ofBits .f32 0x3F000000#32
      = (Ideal.ofBits .f32 0x00000000#32 + (b + a) * Ideal.ofBits .f32 0x3F000000#32) + (e + d) * Ideal.ofBits .f32 0x3F000000#32 := by
  have h0 : (0 : EReal) ≤ Ideal.ofBits .f32 0x3F000000#32 := by rw [ofBits_half]; exact_mod_cast (by norm_num : (0 : ℝ) ≤ 1 / 2)
  have ht : Ideal.ofBits .f32 0x3F000000#32 ≠ ⊤ := by rw [ofBits_half]; exact EReal.coe_ne_top _
  rw [Ideal.ofBits_zero_f32, zero_add, EReal.right_distrib_of_nonneg_of_ne_top h0 ht, EReal.right_distrib_of_nonneg_of_ne_top h0 ht,
    EReal.right_distrib_of_nonneg_of_ne_top h0 ht, EReal.right_distrib_of_nonneg_of_ne_top h0 ht, EReal.right_distrib_of_nonneg_of_ne_top h0 ht]
  ac_rfl

/-! ## The whole comparison -/

/-- What the second kernel writes, fed with the four aggregated arrays and the bias row, is the reference's result. -/
theorem value_eq (x0 : C S50000x256 .f32) (x1 : C S2x600000 .f32) (x2 x3 : C S2x256x128 .f32) (x4 : C S128 .f32) (x5 x6 : C S600000 .i32)
    (P : C S50000x512 .f32)
    (hP : P = projAll (truncf (F := Ideal) (s := S50000x256) .bf16 x0 Facts₀.bitsLt_bf16_f32)
      (truncf (F := Ideal) (s := S256x512) .bf16 (wcat x2 x3) Facts₀.bitsLt_bf16_f32)) :
    combineAll
      (Host.scatterAdd (F := Ideal) (φ := .f32) Cert.ReferenceIdeal.scatter_S50000x128_S600000x1_S600000x128_1_0_0_1 (Cert.ReferenceIdeal.Read.val_main_v33 (F := Ideal)) (Cert.ReferenceIdeal.Read.val_main_v34 (F := Ideal) x5)
        (Host.gather (α := Ideal .f32) Cert.ReferenceIdeal.gather_S50000x128_S600000x1_S600000x128_1_0_n_n_0_1_1128 (band0 P) (Cert.ReferenceIdeal.Read.val_main_v29 (F := Ideal) x6)))
      (Host.scatterAdd (F := Ideal) (φ := .f32) Cert.ReferenceIdeal.scatter_S50000x128_S600000x1_S600000x128_1_0_0_1 (Cert.ReferenceIdeal.Read.val_main_v20 (F := Ideal)) (Cert.ReferenceIdeal.Read.val_main_v21 (F := Ideal) x5)
        (mulf (F := Ideal) (φ := .f32) (Host.gather (α := Ideal .f32) Cert.ReferenceIdeal.gather_S50000x128_S600000x1_S600000x128_1_0_n_n_0_1_1128 (band1 P) (Cert.ReferenceIdeal.Read.val_main_v16 (F := Ideal) x6)) (Cert.ReferenceIdeal.Read.val_main_v18 (F := Ideal) x1)))
      (Host.scatterAdd (F := Ideal) (φ := .f32) Cert.ReferenceIdeal.scatter_S50000x128_S600000x1_S600000x128_1_0_0_1 (Cert.ReferenceIdeal.Read.val_main_v71 (F := Ideal)) (Cert.ReferenceIdeal.Read.val_main_v72 (F := Ideal) x5)
        (Host.gather (α := Ideal .f32) Cert.ReferenceIdeal.gather_S50000x128_S600000x1_S600000x128_1_0_n_n_0_1_1128 (band2 P) (Cert.ReferenceIdeal.Read.val_main_v67 (F := Ideal) x6)))
      (Host.scatterAdd (F := Ideal) (φ := .f32) Cert.ReferenceIdeal.scatter_S50000x128_S600000x1_S600000x128_1_0_0_1 (Cert.ReferenceIdeal.Read.val_main_v58 (F := Ideal)) (Cert.ReferenceIdeal.Read.val_main_v59 (F := Ideal) x5)
        (mulf (F := Ideal) (φ := .f32) (Host.gather (α := Ideal .f32) Cert.ReferenceIdeal.gather_S50000x128_S600000x1_S600000x128_1_0_n_n_0_1_1128 (band3 P) (Cert.ReferenceIdeal.Read.val_main_v54 (F := Ideal) x6)) (Cert.ReferenceIdeal.Read.val_main_v56 (F := Ideal) x1)))
      (shapeCast S1x128 x4 Facts₀.shapeCasts_S128_S1x128)
    = Cert.ReferenceIdeal.Read.val_main_v81 (F := Ideal) x0 x1 x2 x3 x4 x5 x6 := by
  subst hP
  rw [band0_proj, band1_proj, band2_proj, band3_proj, unweighted0, weighted0, unweighted1, weighted1]
  funext i
  rw [Cert.ReferenceIdeal.Read.val_main_v81_apply, Cert.ReferenceIdeal.Read.val_main_v80_apply, Cert.ReferenceIdeal.Read.val_main_v77_apply, Cert.ReferenceIdeal.Read.val_main_v39_apply, Cert.ReferenceIdeal.Read.val_main_v38_apply,
    Cert.ReferenceIdeal.Read.val_main_v36_apply, Cert.ReferenceIdeal.Read.val_main_v76_apply, Cert.ReferenceIdeal.Read.val_main_v74_apply, Cert.ReferenceIdeal.Read.val_main_v0_apply, Cert.ReferenceIdeal.Read.val_main_cst_apply,
    Cert.ReferenceIdeal.Read.val_main_v37_apply, Cert.ReferenceIdeal.Read.val_main_cst_6_apply, Cert.ReferenceIdeal.Read.val_main_v75_apply, Cert.ReferenceIdeal.Read.val_main_cst_13_apply,
    Cert.ReferenceIdeal.Read.val_main_call0_v0_apply, Cert.ReferenceIdeal.Read.val_main_call0_cst_apply, Cert.ReferenceIdeal.Read.val_main_v79_apply, Cert.ReferenceIdeal.Read.val_main_v78_apply]
  unfold combineAll
  have hb : shapeCast S1x128 x4 Facts₀.shapeCasts_S128_S1x128 (ValueIdx.ix2 (0 : Fin 1) (⟨(i 1).val, (i 1).isLt⟩ : Fin 128))
      = x4 (Cert.ReferenceIdeal.Read.idx_main_v78 (Cert.ReferenceIdeal.Read.idx_main_v79 i)) :=
    (shapeCast_addUnit_apply ![128] x4 Facts₀.shapeCasts_S128_S1x128 _).trans
      (congrArg x4 (funext fun a => match a with | ⟨0, _⟩ => rfl))
  rw [hb]
  show max (_ * _ + _) _ = max (((_ + (_ + _) * _) + (_ + _) * _) + _) _
  exact congrArg₂ max (congrArg₂ (· + ·) (half_sum _ _ _ _) rfl) rfl

end Cert.KernelIdeal.Bridge

end
-- ==== Proof.KernelValue.lean ====
/-
  What the idealized kernel program leaves in its result array, as a function of its argument arrays: the second
  kernel's blocks assemble to the combination of the four aggregated arrays with the bias row; those arrays are the
  host's gathers and row sums of the column bands of the first kernel's output; that output's blocks assemble to the
  product of the node features with the four weight matrices laid side by side. Composed, this is the reference's
  result at the same arguments.
-/
import proofs.«172103_j40905268527669_1_alg».proof.Proof.KernelIdealFrame
import proofs.«172103_j40905268527669_1_alg».proof.Proof.KernelArrays
import proofs.«172103_j40905268527669_1_alg».proof.Proof.KernelHost
import proofs.«172103_j40905268527669_1_alg».proof.Proof.KernelBridge

noncomputable section

namespace Cert.KernelIdeal.HandRun

open Cert.KernelIdeal Cert.KernelIdeal.Gen Cert.KernelIdeal.Hand Cert.KernelIdeal.HandValue Cert.KernelIdeal.HostVal Cert.KernelIdeal.Bridge
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays are still the launch's when the second host stretch starts -/

theorem W2_arg1 : W2 m ρ c (Proc.devRef .tc main_arg1) = m ((c : Thread nD τ).loc main_arg1) := by
  rw [W2_of_ne m ρ c main_arg1 (by decide)]
  show StableHlo.after (hostOps0 (F := Ideal)) (W0 m ρ c) (Proc.devRef .tc main_arg1) = _
  after_results <;> rfl

theorem W2_arg4 : W2 m ρ c (Proc.devRef .tc main_arg4) = m ((c : Thread nD τ).loc main_arg4) := by
  rw [W2_of_ne m ρ c main_arg4 (by decide)]
  show StableHlo.after (hostOps0 (F := Ideal)) (W0 m ρ c) (Proc.devRef .tc main_arg4) = _
  after_results <;> rfl

theorem W2_arg5 : W2 m ρ c (Proc.devRef .tc main_arg5) = m ((c : Thread nD τ).loc main_arg5) := by
  rw [W2_of_ne m ρ c main_arg5 (by decide)]
  show StableHlo.after (hostOps0 (F := Ideal)) (W0 m ρ c) (Proc.devRef .tc main_arg5) = _
  after_results <;> rfl

theorem W2_arg6 : W2 m ρ c (Proc.devRef .tc main_arg6) = m ((c : Thread nD τ).loc main_arg6) := by
  rw [W2_of_ne m ρ c main_arg6 (by decide)]
  show StableHlo.after (hostOps0 (F := Ideal)) (W0 m ρ c) (Proc.devRef .tc main_arg6) = _
  after_results <;> rfl

/-! ## The first kernel's output array -/

/-- The first kernel leaves the product of the node features with the four weight matrices laid side by side. -/
theorem projected : W2 m ρ c (Proc.devRef .tc main_v11)
    = projAll (truncf (F := Ideal) (s := S50000x256) .bf16 (m ((c : Thread nD τ).loc main_arg0)) Facts₀.bitsLt_bf16_f32)
        (truncf (F := Ideal) (s := S256x512) .bf16 (wcat (m ((c : Thread nD τ).loc main_arg2)) (m ((c : Thread nD τ).loc main_arg3))) Facts₀.bitsLt_bf16_f32) := by
  refine (W2_arr m ρ c 2).trans ?_
  rw [final0 (V1 m ρ) c]
  have e9 : V1 m ρ c main_v9 = _ := host0_v9 (W0 m ρ c)
  have e10 : V1 m ρ c main_v10 = _ := host0_v10 (W0 m ρ c)
  rw [e9, e10]

/-! ## The result array -/

/-- The kernel program's result array is the reference's result at the same arguments. -/
theorem result : W4 m ρ c (Proc.devRef .tc main_v67)
    = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ?_
  rw [final1 (V3 m ρ) c]
  have e37 : V3 m ρ c main_v37 = _ := host1_v37 (W2 m ρ c)
  have e40 : V3 m ρ c main_v40 = _ := host1_v40 (W2 m ρ c)
  have e62 : V3 m ρ c main_v62 = _ := host1_v62 (W2 m ρ c)
  have e65 : V3 m ρ c main_v65 = _ := host1_v65 (W2 m ρ c)
  have e66 : V3 m ρ c main_v66 = _ := host1_v66 (W2 m ρ c)
  rw [e37, e40, e62, e65, e66, W2_arg1, W2_arg4, W2_arg5, W2_arg6]
  exact value_eq _ _ _ _ _ _ _ _ (projected m ρ c)

end Cert.KernelIdeal.HandRun

end
-- ==== Proof.lean ====
/-
  A graph convolution with two supports: every node's features are projected by four weight matrices (A and B of each
  support), each edge adds its source node's projected row — for the B matrices scaled by the edge's value — into its
  target node's row, the four sums are averaged pairwise, the bias is added and negative entries are cut to zero.
  The kernel program projects with ONE product against the four matrices laid side by side and combines the four
  aggregated arrays in a second kernel; the reference projects four times and combines on the host. Read over the
  extended reals the two compute one function: a column band of the joint product is the product with one matrix, a
  row of ones scales nothing, a product commutes, and half a sum is the sum of the halves because one half is a
  nonnegative real (no finiteness of the inputs is needed). The three frames: each kernel program runs to the end
  without a fault and leaves its arguments alone (the two-region run, at both instances); the reference's frame is
  its run with the result dropped. The idealization rewrote nothing, so there is nothing to preserve.
-/
import proofs.«172103_j40905268527669_1_alg».proof.Defs
import proofs.«172103_j40905268527669_1_alg».proof.Proof.Gen.Kernel
import proofs.«172103_j40905268527669_1_alg».proof.Proof.Gen.KernelIdeal
import proofs.«172103_j40905268527669_1_alg».proof.Proof.Gen.ReferenceIdeal
import proofs.«172103_j40905268527669_1_alg».proof.Proof.Gen.Pre_finite_inputs
import proofs.«172103_j40905268527669_1_alg».proof.Proof.Gen.ReferenceIdeal.Run
import proofs.«172103_j40905268527669_1_alg».proof.Proof.Gen.ReferenceIdeal.Read
import proofs.«172103_j40905268527669_1_alg».proof.Proof.KernelFrame
import proofs.«172103_j40905268527669_1_alg».proof.Proof.KernelIdealFrame
import proofs.«172103_j40905268527669_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program, word level: it runs and leaves its arguments alone. -/
theorem frame_k : Cert.frame_Kernel :=
  fun m ρ _ => Cert.Kernel.Hand.frame m ρ

/-- The same at the exact instance. -/
theorem frame_ki : Cert.frame_KernelIdeal :=
  fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's function of the arguments in their result arrays. -/
theorem algebraic : Cert.algebraic_KernelIdeal_ReferenceIdeal := by
  intro m ρ m' ρ' _ hagree
  refine ⟨fun c => Cert.KernelIdeal.Hand.W4 m ρ c (Proc.devRef .tc Cert.KernelIdeal.main_v67), ?_, ?_⟩
  · exact (θ_run Cert.KernelIdeal.defs _ _).mono (fun r h c =>
      ⟨h c _ (Cert.KernelIdeal.Hand.mem_uc Cert.KernelIdeal.main_v67 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c)⟩)
      (Cert.KernelIdeal.Hand.run_all m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v81_eq, (hagree c).1, (hagree c).2.1, (hagree c).2.2.1, (hagree c).2.2.2.1, (hagree c).2.2.2.2.1,
      (hagree c).2.2.2.2.2.1, (hagree c).2.2.2.2.2.2]
    exact (Cert.KernelIdeal.HandRun.result m ρ c).symm

theorem claim : Cert.Claim := ⟨Cert.Kernel.Gen.facts, Cert.KernelIdeal.Gen.facts, Cert.ReferenceIdeal.Gen.facts, Cert.Pre_finite_inputs.Gen.facts,
  frame_k,
  frame_ki,
  frame_ri,
  trivial,
  algebraic⟩

end Cert.Proof

end
